-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x1024 : Shape := ⟨3, ![64, 512, 1024]⟩
abbrev S64x512x768 : Shape := ⟨3, ![64, 512, 768]⟩
abbrev S64x1024x1024 : Shape := ⟨3, ![64, 1024, 1024]⟩
abbrev S64x768x768 : Shape := ⟨3, ![64, 768, 768]⟩
abbrev S64x1x1792 : Shape := ⟨3, ![64, 1, 1792]⟩
abbrev S_ : Shape := ⟨0, ![]⟩

class Facts : Prop where
  bcast_S_S64x512x1024 : S_.BroadcastsInDim S64x512x1024 (![] : Fin 0 → Fin S64x512x1024.rank)
  reducesTo_S64x512x1024_S_d0_1_2 : S64x512x1024.ReducesTo [0, 1, 2] S_
  h_S_ : 0 < S_.numel
  bcast_S_S64x512x768 : S_.BroadcastsInDim S64x512x768 (![] : Fin 0 → Fin S64x512x768.rank)
  reducesTo_S64x512x768_S_d0_1_2 : S64x512x768.ReducesTo [0, 1, 2] S_
  bcast_S_S64x1024x1024 : S_.BroadcastsInDim S64x1024x1024 (![] : Fin 0 → Fin S64x1024x1024.rank)
  reducesTo_S64x1024x1024_S_d0_1_2 : S64x1024x1024.ReducesTo [0, 1, 2] S_
  bcast_S_S64x768x768 : S_.BroadcastsInDim S64x768x768 (![] : Fin 0 → Fin S64x768x768.rank)
  reducesTo_S64x768x768_S_d0_1_2 : S64x768x768.ReducesTo [0, 1, 2] S_
  bcast_S_S64x1x1792 : S_.BroadcastsInDim S64x1x1792 (![] : Fin 0 → Fin S64x1x1792.rank)
  reducesTo_S64x1x1792_S_d0_1_2 : S64x1x1792.ReducesTo [0, 1, 2] S_

variable [Facts]

def fn_part1 {F : FTy → Type} [FloatOps F] (main_arg4 : FVec F S64x1x1792 .f32) (main_v13 : IVec S_ 1) (main_v16 : IVec S64x768x768 1) : IVec S_ 1 :=
  let main_c_5 : IVec S_ 1 := constantI S_ 1 1#1
  let main_v17 : IVec S_ 1 := (fun x v => Host.reduce IntOp.andi x v reducesTo_S64x768x768_S_d0_1_2 h_S_) main_v16 main_c_5
  let main_v18 : IVec S_ 1 := andi main_v13 main_v17
  let main_v19 : FVec F S64x1x1792 .f32 := Host.absf main_arg4
  let main_cst_6 : FVec F S_ .f32 := constant S_ .f32 0x7F800000#32
  let main_v20 : FVec F S64x1x1792 .f32 := broadcastInDim S64x1x1792 ![] bcast_S_S64x1x1792 main_cst_6
  let main_v21 : IVec S64x1x1792 1 := cmpf .olt main_v19 main_v20
  let main_c_7 : IVec S_ 1 := constantI S_ 1 1#1
  let main_v22 : IVec S_ 1 := (fun x v => Host.reduce IntOp.andi x v reducesTo_S64x1x1792_S_d0_1_2 h_S_) main_v21 main_c_7
  let main_v23 : IVec S_ 1 := andi main_v18 main_v22
  main_v23

def fn {F : FTy → Type} [FloatOps F] (main_arg0 : FVec F S64x512x1024 .f32) (main_arg1 : FVec F S64x512x768 .f32) (main_arg2 : FVec F S64x1024x1024 .f32) (main_arg3 : FVec F S64x768x768 .f32) (main_arg4 : FVec F S64x1x1792 .f32) : IVec S_ 1 :=
  let main_v0 : FVec F S64x512x1024 .f32 := Host.absf main_arg0
  let main_cst : FVec F S_ .f32 := constant S_ .f32 0x7F800000#32
  let main_v1 : FVec F S64x512x1024 .f32 := broadcastInDim S64x512x1024 ![] bcast_S_S64x512x1024 main_cst
  let main_v2 : IVec S64x512x1024 1 := cmpf .olt main_v0 main_v1
  let main_c : IVec S_ 1 := constantI S_ 1 1#1
  let main_v3 : IVec S_ 1 := (fun x v => Host.reduce IntOp.andi x v reducesTo_S64x512x1024_S_d0_1_2 h_S_) main_v2 main_c
  let main_v4 : FVec F S64x512x768 .f32 := Host.absf main_arg1
  let main_cst_0 : FVec F S_ .f32 := constant S_ .f32 0x7F800000#32
  let main_v5 : FVec F S64x512x768 .f32 := broadcastInDim S64x512x768 ![] bcast_S_S64x512x768 main_cst_0
  let main_v6 : IVec S64x512x768 1 := cmpf .olt main_v4 main_v5
  let main_c_1 : IVec S_ 1 := constantI S_ 1 1#1
  let main_v7 : IVec S_ 1 := (fun x v => Host.reduce IntOp.andi x v reducesTo_S64x512x768_S_d0_1_2 h_S_) main_v6 main_c_1
  let main_v8 : IVec S_ 1 := andi main_v3 main_v7
  let main_v9 : FVec F S64x1024x1024 .f32 := Host.absf main_arg2
  let main_cst_2 : FVec F S_ .f32 := constant S_ .f32 0x7F800000#32
  let main_v10 : FVec F S64x1024x1024 .f32 := broadcastInDim S64x1024x1024 ![] bcast_S_S64x1024x1024 main_cst_2
  let main_v11 : IVec S64x1024x1024 1 := cmpf .olt main_v9 main_v10
  let main_c_3 : IVec S_ 1 := constantI S_ 1 1#1
  let main_v12 : IVec S_ 1 := (fun x v => Host.reduce IntOp.andi x v reducesTo_S64x1024x1024_S_d0_1_2 h_S_) main_v11 main_c_3
  let main_v13 : IVec S_ 1 := andi main_v8 main_v12
  let main_v14 : FVec F S64x768x768 .f32 := Host.absf main_arg3
  let main_cst_4 : FVec F S_ .f32 := constant S_ .f32 0x7F800000#32
  let main_v15 : FVec F S64x768x768 .f32 := broadcastInDim S64x768x768 ![] bcast_S_S64x768x768 main_cst_4
  let main_v16 : IVec S64x768x768 1 := cmpf .olt main_v14 main_v15
  fn_part1 (F := F) main_arg4 main_v13 main_v16
-- ==== Kernel.lean ====
abbrev S64x512x1024 : Shape := ⟨3, ![64, 512, 1024]⟩
abbrev S64x512x768 : Shape := ⟨3, ![64, 512, 768]⟩
abbrev S64x1024x1024 : Shape := ⟨3, ![64, 1024, 1024]⟩
abbrev S64x768x768 : Shape := ⟨3, ![64, 768, 768]⟩
abbrev S64x1x1792 : Shape := ⟨3, ![64, 1, 1792]⟩
abbrev S64x1x512 : Shape := ⟨3, ![64, 1, 512]⟩
abbrev S64x1x1024 : Shape := ⟨3, ![64, 1, 1024]⟩
abbrev S1x512x1024 : Shape := ⟨3, ![1, 512, 1024]⟩
abbrev S1x512x768 : Shape := ⟨3, ![1, 512, 768]⟩
abbrev S1x1024x1024 : Shape := ⟨3, ![1, 1024, 1024]⟩
abbrev S1x768x768 : Shape := ⟨3, ![1, 768, 768]⟩
abbrev S1x1x1792 : Shape := ⟨3, ![1, 1, 1792]⟩
abbrev S1x1x512 : Shape := ⟨3, ![1, 1, 512]⟩
abbrev S1x1x1024 : Shape := ⟨3, ![1, 1, 1024]⟩
abbrev S512x1024 : Shape := ⟨2, ![512, 1024]⟩
abbrev S512x768 : Shape := ⟨2, ![512, 768]⟩
abbrev S1024x1024 : Shape := ⟨2, ![1024, 1024]⟩
abbrev S768x768 : Shape := ⟨2, ![768, 768]⟩
abbrev S1024x512 : Shape := ⟨2, ![1024, 512]⟩
abbrev S768x512 : Shape := ⟨2, ![768, 512]⟩
abbrev S1x1792 : Shape := ⟨2, ![1, 1792]⟩
abbrev S1x1024 : Shape := ⟨2, ![1, 1024]⟩
abbrev S1x768 : Shape := ⟨2, ![1, 768]⟩
abbrev S1x512 : Shape := ⟨2, ![1, 512]⟩
abbrev S1 : Shape := ⟨1, ![1]⟩
abbrev S1x1 : Shape := ⟨2, ![1, 1]⟩

abbrev nBuf : Space → Nat
  | .hbm => 7
  | .vmem => 14
  | .smem => 0
  | _ => 0

abbrev bufTy : (tb : Table) → Fin (tcTables nBuf tb) → BufTy
  | .hbm, ⟨0, _⟩ => ⟨S64x512x1024, .f32⟩
  | .hbm, ⟨1, _⟩ => ⟨S64x512x768, .f32⟩
  | .hbm, ⟨2, _⟩ => ⟨S64x1024x1024, .f32⟩
  | .hbm, ⟨3, _⟩ => ⟨S64x768x768, .f32⟩
  | .hbm, ⟨4, _⟩ => ⟨S64x1x1792, .f32⟩
  | .hbm, ⟨5, _⟩ => ⟨S64x1x512, .f32⟩
  | .hbm, ⟨6, _⟩ => ⟨S64x1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x768, .f32⟩
  | .local _ .vmem, ⟨3, _⟩ => ⟨S1x512x768, .f32⟩
  | .local _ .vmem, ⟨4, _⟩ => ⟨S1x1024x1024, .f32⟩
  | .local _ .vmem, ⟨5, _⟩ => ⟨S1x1024x1024, .f32⟩
  | .local _ .vmem, ⟨6, _⟩ => ⟨S1x768x768, .f32⟩
  | .local _ .vmem, ⟨7, _⟩ => ⟨S1x768x768, .f32⟩
  | .local _ .vmem, ⟨8, _⟩ => ⟨S1x1x1792, .f32⟩
  | .local _ .vmem, ⟨9, _⟩ => ⟨S1x1x1792, .f32⟩
  | .local _ .vmem, ⟨10, _⟩ => ⟨S1x1x512, .f32⟩
  | .local _ .vmem, ⟨11, _⟩ => ⟨S1x1x512, .f32⟩
  | .local _ .vmem, ⟨12, _⟩ => ⟨S1x1x1024, .f32⟩
  | .local _ .vmem, ⟨13, _⟩ => ⟨S1x1x1024, .f32⟩
  | _, _ => ⟨S64x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x768x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x768x768_S1x768x768_0_0_0 : ∀ a, (![0, 0, 0] : Fin 3 → Nat) a + S1x768x768.size a ≤ S1x768x768.size a
  h_S1x768x768 : 0 < S1x768x768.numel
  shapeCasts_S1x768x768_S768x768 : S1x768x768.ShapeCasts S768x768
  inb_S1x1x1792_S1x1x1792_0_0_0 : ∀ a, (![0, 0, 0] : Fin 3 → Nat) a + S1x1x1792.size a ≤ S1x1x1792.size a
  h_S1x1x1792 : 0 < S1x1x1792.numel
  shapeCasts_S1x1x1792_S1x1792 : S1x1x1792.ShapeCasts S1x1792
  slices_S1x1792_o0_0_S1x1024 : S1x1792.Slices ![0, 0] S1x1024
  slices_S1x1792_o0_1024_S1x768 : S1x1792.Slices ![0, 1024] S1x768
  reduces_S1x512_S1 : S1x512.Reduces [1] S1
  shapeCasts_S1_S1x1 : S1.ShapeCasts S1x1
  broadcasts_S1x1_S1x512 : S1x1.Broadcasts S1x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  dot_S1024x1024_S512x1024_S1024x512_1_1_0_0_n_n_wf : DotDims.WF S1024x1024 S512x1024 S1024x512 [1] [1] [0] [0] [] []
  dot_S768x768_S512x768_S768x512_1_1_0_0_n_n_wf : DotDims.WF S768x768 S512x768 S768x512 [1] [1] [0] [0] [] []
  dot_S1x1024_S1024x512_S1x512_1_0_0_1_n_n_wf : DotDims.WF S1x1024 S1024x512 S1x512 [1] [0] [0] [1] [] []
  dot_S1x768_S768x512_S1x512_1_0_0_1_n_n_wf : DotDims.WF S1x768 S768x512 S1x512 [1] [0] [0] [1] [] []
  dot_S1x512_S512x1024_S1x1024_1_0_0_1_n_n_wf : DotDims.WF S1x512 S512x1024 S1x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S64x512x1024.size a
  hwx0_0 : ∀ i : grid0.Coords, EltTy.bits .f32 = 32 ∨ (Rect.block (s := S64x512x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x768.size a ≤ S64x512x768.size a
  hwx0_1 : ∀ i : grid0.Coords, EltTy.bits .f32 = 32 ∨ (Rect.block (s := S64x512x768) S1x512x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S64x1024x1024.size a
  hwx0_2 : ∀ i : grid0.Coords, EltTy.bits .f32 = 32 ∨ (Rect.block (s := S64x1024x1024) S1x1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x768x768.size a ≤ S64x768x768.size a
  hwx0_3 : ∀ i : grid0.Coords, EltTy.bits .f32 = 32 ∨ (Rect.block (s := S64x768x768) S1x768x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1792.size a ≤ S64x1x1792.size a
  hwx0_4 : ∀ i : grid0.Coords, EltTy.bits .f32 = 32 ∨ (Rect.block (s := S64x1x1792) S1x1x1792.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512.size a ≤ S64x1x512.size a
  hwx0_5 : ∀ i : grid0.Coords, EltTy.bits .f32 = 32 ∨ (Rect.block (s := S64x1x512) S1x1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1024.size a ≤ S64x1x1024.size a
  hwx0_6 : ∀ i : grid0.Coords, EltTy.bits .f32 = 32 ∨ (Rect.block (s := S64x1x1024) S1x1x1024.size (cc0_transform_6 i) (hinb0_6 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S768x768_S512x768_S768x512_1_1_0_0_n_n : DotDims S768x768 S512x768 S768x512 where
  lhsContracting := [1]
  rhsContracting := [1]
  lhsNonContracting := [0]
  rhsNonContracting := [0]
  lhsBatch := []
  rhsBatch := []
  wf := dot_S768x768_S512x768_S768x512_1_1_0_0_n_n_wf
def dot_S1x1024_S1024x512_S1x512_1_0_0_1_n_n : DotDims S1x1024 S1024x512 S1x512 where
  lhsContracting := [1]
  rhsContracting := [0]
  lhsNonContracting := [0]
  rhsNonContracting := [1]
  lhsBatch := []
  rhsBatch := []
  wf := dot_S1x1024_S1024x512_S1x512_1_0_0_1_n_n_wf
def dot_S1x768_S768x512_S1x512_1_0_0_1_n_n : DotDims S1x768 S768x512 S1x512 where
  lhsContracting := [1]
  rhsContracting := [0]
  lhsNonContracting := [0]
  rhsNonContracting := [1]
  lhsBatch := []
  rhsBatch := []
  wf := dot_S1x768_S768x512_S1x512_1_0_0_1_n_n_wf
def dot_S1x512_S512x1024_S1x1024_1_0_0_1_n_n : DotDims S1x512 S512x1024 S1x1024 where
  lhsContracting := [1]
  rhsContracting := [0]
  lhsNonContracting := [0]
  rhsNonContracting := [1]
  lhsBatch := []
  rhsBatch := []
  wf := dot_S1x512_S512x1024_S1x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x768x768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1x1792.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S1x1x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S1x1x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x512x1024 : Shape := ⟨3, ![64, 512, 1024]⟩
abbrev S64x512x768 : Shape := ⟨3, ![64, 512, 768]⟩
abbrev S64x1024x1024 : Shape := ⟨3, ![64, 1024, 1024]⟩
abbrev S64x768x768 : Shape := ⟨3, ![64, 768, 768]⟩
abbrev S64x1x1792 : Shape := ⟨3, ![64, 1, 1792]⟩
abbrev S64x1024x512 : Shape := ⟨3, ![64, 1024, 512]⟩
abbrev S64x768x512 : Shape := ⟨3, ![64, 768, 512]⟩
abbrev S64x1792x512 : Shape := ⟨3, ![64, 1792, 512]⟩
abbrev S64x1x512 : Shape := ⟨3, ![64, 1, 512]⟩
abbrev S_ : Shape := ⟨0, ![]⟩
abbrev S64x1 : Shape := ⟨2, ![64, 1]⟩
abbrev S64x1x1 : Shape := ⟨3, ![64, 1, 1]⟩
abbrev S64x1x1024 : Shape := ⟨3, ![64, 1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S64x512x1024, .f32⟩
  | .hbm, ⟨1, _⟩ => ⟨S64x512x768, .f32⟩
  | .hbm, ⟨2, _⟩ => ⟨S64x1024x1024, .f32⟩
  | .hbm, ⟨3, _⟩ => ⟨S64x768x768, .f32⟩
  | .hbm, ⟨4, _⟩ => ⟨S64x1x1792, .f32⟩
  | .hbm, ⟨5, _⟩ => ⟨S64x1024x512, .f32⟩
  | .hbm, ⟨6, _⟩ => ⟨S64x768x512, .f32⟩
  | .hbm, ⟨7, _⟩ => ⟨S64x1024x512, .f32⟩
  | .hbm, ⟨8, _⟩ => ⟨S64x768x512, .f32⟩
  | .hbm, ⟨9, _⟩ => ⟨S64x1792x512, .f32⟩
  | .hbm, ⟨10, _⟩ => ⟨S64x1792x512, .f32⟩
  | .hbm, ⟨11, _⟩ => ⟨S64x1x512, .f32⟩
  | .hbm, ⟨12, _⟩ => ⟨S_, .f32⟩
  | .hbm, ⟨13, _⟩ => ⟨S64x1, .f32⟩
  | .hbm, ⟨14, _⟩ => ⟨S_, .f32⟩
  | .hbm, ⟨15, _⟩ => ⟨S64x1, .f32⟩
  | .hbm, ⟨16, _⟩ => ⟨S64x1, .f32⟩
  | .hbm, ⟨17, _⟩ => ⟨S64x1x1, .f32⟩
  | .hbm, ⟨18, _⟩ => ⟨S64x1x512, .f32⟩
  | .hbm, ⟨19, _⟩ => ⟨S64x1x512, .f32⟩
  | .hbm, ⟨20, _⟩ => ⟨S64x1x512, .f32⟩
  | .hbm, ⟨21, _⟩ => ⟨S_, .f32⟩
  | .hbm, ⟨22, _⟩ => ⟨S64x1, .f32⟩
  | .hbm, ⟨23, _⟩ => ⟨S64x1x1, .f32⟩
  | .hbm, ⟨24, _⟩ => ⟨S64x1x512, .f32⟩
  | .hbm, ⟨25, _⟩ => ⟨S64x1x512, .f32⟩
  | .hbm, ⟨26, _⟩ => ⟨S64x1x1024, .f32⟩
  | _, _ => ⟨S64x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  transposes_S64x512x1024_S64x1024x512_0_2_1 : S64x512x1024.Transposes [0, 2, 1] S64x1024x512
  transposes_S64x512x768_S64x768x512_0_2_1 : S64x512x768.Transposes [0, 2, 1] S64x768x512
  concatenates_S64x1024x512_S64x768x512_S64x1792x512_d1 : Shape.Concatenates [S64x1024x512, S64x768x512] S64x1792x512 1
  reducesTo_S64x1x512_S64x1_d2 : S64x1x512.ReducesTo [2] S64x1
  h_S_ : 0 < S_.numel
  bcast_S_S64x1 : S_.BroadcastsInDim S64x1 (![] : Fin 0 → Fin S64x1.rank)
  bcast_S64x1_S64x1x1_0_1 : S64x1.BroadcastsInDim S64x1x1 (![0, 1] : Fin 2 → Fin S64x1x1.rank)
  bcast_S64x1x1_S64x1x512_0_1_2 : S64x1x1.BroadcastsInDim S64x1x512 (![0, 1, 2] : Fin 3 → Fin S64x1x512.rank)
  dot_S64x1024x1024_S64x1024x512_S64x1024x512_2_1_1_2_0_0_wf : DotDims.WF S64x1024x1024 S64x1024x512 S64x1024x512 [2] [1] [1] [2] [0] [0]
  dot_S64x768x768_S64x768x512_S64x768x512_2_1_1_2_0_0_wf : DotDims.WF S64x768x768 S64x768x512 S64x768x512 [2] [1] [1] [2] [0] [0]
  dot_S64x1x1792_S64x1792x512_S64x1x512_2_1_1_2_0_0_wf : DotDims.WF S64x1x1792 S64x1792x512 S64x1x512 [2] [1] [1] [2] [0] [0]
  dot_S64x1x512_S64x1024x512_S64x1x1024_2_2_1_1_0_0_wf : DotDims.WF S64x1x512 S64x1024x512 S64x1x1024 [2] [2] [1] [1] [0] [0]

variable [Facts₀]

def dot_S64x1024x1024_S64x1024x512_S64x1024x512_2_1_1_2_0_0 : DotDims S64x1024x1024 S64x1024x512 S64x1024x512 where
  lhsContracting := [2]
  rhsContracting := [1]
  lhsNonContracting := [1]
  rhsNonContracting := [2]
  lhsBatch := [0]
  rhsBatch := [0]
  wf := dot_S64x1024x1024_S64x1024x512_S64x1024x512_2_1_1_2_0_0_wf
def dot_S64x768x768_S64x768x512_S64x768x512_2_1_1_2_0_0 : DotDims S64x768x768 S64x768x512 S64x768x512 where
  lhsContracting := [2]
  rhsContracting := [1]
  lhsNonContracting := [1]
  rhsNonContracting := [2]
  lhsBatch := [0]
  rhsBatch := [0]
  wf := dot_S64x768x768_S64x768x512_S64x768x512_2_1_1_2_0_0_wf
def dot_S64x1x1792_S64x1792x512_S64x1x512_2_1_1_2_0_0 : DotDims S64x1x1792 S64x1792x512 S64x1x512 where
  lhsContracting := [2]
  rhsContracting := [1]
  lhsNonContracting := [1]
  rhsNonContracting := [2]
  lhsBatch := [0]
  rhsBatch := [0]
  wf := dot_S64x1x1792_S64x1792x512_S64x1x512_2_1_1_2_0_0_wf
def dot_S64x1x512_S64x1024x512_S64x1x1024_2_2_1_1_0_0 : DotDims S64x1x512 S64x1024x512 S64x1x1024 where
  lhsContracting := [2]
  rhsContracting := [2]
  lhsNonContracting := [1]
  rhsNonContracting := [1]
  lhsBatch := [0]
  rhsBatch := [0]
  wf := dot_S64x1x512_S64x1024x512_S64x1x1024_2_2_1_1_0_0_wf

class Facts : Prop extends Facts₀ where

variable [Facts]
-- ==== Proof.Spec.lean ====
/-
  Attention pooling over one sequence, as a function of its five operands, on the extended reals.

  For a sequence of S = 512 positions with a text row X s ∈ ℝ̄^1024 and an aspect row Y s ∈ ℝ̄^768 at each position, two square
  weight matrices Wt (1024 × 1024) and Wa (768 × 768) and a combining row Wc ∈ ℝ̄^1792:

    projection   (W · Xᵀ) (a, s)  = ∑ c, W a c · X s c                        (`proj`)
    score        z s             = ∑ h < 1024, Wc h · tanh ((Wt · Xᵀ) (h, s))
                                  + ∑ e < 768, Wc (1024 + e) · tanh ((Wa · Yᵀ) (e, s))    (`scores`)
    weight       w s             = exp (z s − M) / ∑ k, exp (z k − M),   M = max (−∞, max over s of z s)   (`softmax`)
    pooled row   o h             = ∑ s, w s · X s h                          (`pooled`)

  The score is written as the two partial sums; the same score written as ONE sum over the 1792 coordinates of the
  combining row, whose summand is taken from the text projection below 1024 and from the aspect projection from 1024 on, is
  equal to it by splitting the index range (`sum_split`): only associativity and commutativity of the addition of extended
  reals are used, so no finiteness is needed anywhere.
-/
import Idealize.ShloMosaic.PureOps.Ideal
import Idealize.ShloMosaic.Lib.ValueIdx
import Mathlib.Algebra.BigOperators.Fin

noncomputable section

namespace Cert.AttnPool

open Idealize.ShloMosaic Idealize.ShloMosaic.ValueIdx

/-- Sequence `b` of a stack of matrices: the matrix `(i, j) ↦ x (b, i, j)`. -/
def slab {n0 n1 n2 : Nat} (x : (⟨3, ![n0, n1, n2]⟩ : Shape).Idx → EReal) (b : Fin n0) : Fin n1 → Fin n2 → EReal :=
  fun i j => x (ix3 b i j)

/-- Sequence `b` of a stack of one-row matrices: the row `j ↦ x (b, 0, j)`. -/
def slabRow {n0 n2 : Nat} (x : (⟨3, ![n0, 1, n2]⟩ : Shape).Idx → EReal) (b : Fin n0) : Fin n2 → EReal :=
  fun j => x (ix3 b 0 j)

/-- Entry `(a, b)` of `W · Xᵀ`: both operands contracted along their last axis. -/
def proj {n k s : Nat} (W : Fin n → Fin k → EReal) (X : Fin s → Fin k → EReal) (a : Fin n) (b : Fin s) : EReal :=
  ∑ c : Fin k, W a c * X b c

/-- The value of the f32 pattern of `−∞`, the start of every running maximum here. -/
def negInf : EReal := Ideal.ofBits .f32 0xFF800000#32

/-- The score of position `s`: the combining row against the hyperbolic tangents of the two projections' columns at `s`. -/
def scores (X : Fin 512 → Fin 1024 → EReal) (Y : Fin 512 → Fin 768 → EReal) (Wt : Fin 1024 → Fin 1024 → EReal)
    (Wa : Fin 768 → Fin 768 → EReal) (Wc : Fin 1792 → EReal) (s : Fin 512) : EReal :=
  (∑ h : Fin 1024, Wc ⟨h.val, by omega⟩ * Ideal.tanh (proj Wt X h s))
    + ∑ e : Fin 768, Wc ⟨1024 + e.val, by omega⟩ * Ideal.tanh (proj Wa Y e s)

/-- The shift of a softmax: the largest entry, taken from `−∞` (and once more against `−∞`, as jax writes it). -/
def rowMax {n : Nat} (z : Fin n → EReal) : EReal := max negInf ((Finset.univ : Finset (Fin n)).fold max negInf z)

/-- The shifted exponentials. -/
def expShift {n : Nat} (z : Fin n → EReal) (s : Fin n) : EReal := Ideal.exp (z s - rowMax z)

/-- The softmax of a row: the shifted exponentials over their sum. -/
def softmax {n : Nat} (z : Fin n → EReal) (s : Fin n) : EReal := Ideal.div (expShift z s) (∑ k : Fin n, expShift z k)

/-- The attention weights of one sequence. -/
def weight (X : Fin 512 → Fin 1024 → EReal) (Y : Fin 512 → Fin 768 → EReal) (Wt : Fin 1024 → Fin 1024 → EReal)
    (Wa : Fin 768 → Fin 768 → EReal) (Wc : Fin 1792 → EReal) : Fin 512 → EReal :=
  softmax (scores X Y Wt Wa Wc)

/-- The pooled text row: the positions' text rows averaged with the attention weights. -/
def pooled (X : Fin 512 → Fin 1024 → EReal) (Y : Fin 512 → Fin 768 → EReal) (Wt : Fin 1024 → Fin 1024 → EReal)
    (Wa : Fin 768 → Fin 768 → EReal) (Wc : Fin 1792 → EReal) (h : Fin 1024) : EReal :=
  ∑ s : Fin 512, weight X Y Wt Wa Wc s * X s h

/-- The weights of all 64 sequences as one [64, 1, 512] array of the five argument arrays. -/
def weightArr (a0 : (⟨3, ![64, 512, 1024]⟩ : Shape).Idx → EReal) (a1 : (⟨3, ![64, 512, 768]⟩ : Shape).Idx → EReal)
    (a2 : (⟨3, ![64, 1024, 1024]⟩ : Shape).Idx → EReal) (a3 : (⟨3, ![64, 768, 768]⟩ : Shape).Idx → EReal)
    (a4 : (⟨3, ![64, 1, 1792]⟩ : Shape).Idx → EReal) : (⟨3, ![64, 1, 512]⟩ : Shape).Idx → EReal :=
  fun i => weight (slab a0 (i 0)) (slab a1 (i 0)) (slab a2 (i 0)) (slab a3 (i 0)) (slabRow a4 (i 0)) (i 2)

/-- The pooled rows of all 64 sequences as one [64, 1, 1024] array of the five argument arrays. -/
def pooledArr (a0 : (⟨3, ![64, 512, 1024]⟩ : Shape).Idx → EReal) (a1 : (⟨3, ![64, 512, 768]⟩ : Shape).Idx → EReal)
    (a2 : (⟨3, ![64, 1024, 1024]⟩ : Shape).Idx → EReal) (a3 : (⟨3, ![64, 768, 768]⟩ : Shape).Idx → EReal)
    (a4 : (⟨3, ![64, 1, 1792]⟩ : Shape).Idx → EReal) : (⟨3, ![64, 1, 1024]⟩ : Shape).Idx → EReal :=
  fun i => pooled (slab a0 (i 0)) (slab a1 (i 0)) (slab a2 (i 0)) (slab a3 (i 0)) (slabRow a4 (i 0)) (i 2)

/-- A sum over `n = a + b` coordinates is the sum over the first `a` plus the sum over the last `b`, in any additive
    commutative monoid. -/
theorem sum_split {M : Type*} [AddCommMonoid M] {a b n : Nat} (hn : a + b = n) (f : Fin n → M) :
    ∑ c : Fin n, f c = (∑ i : Fin a, f ⟨i.val, by omega⟩) + ∑ j : Fin b, f ⟨a + j.val, by omega⟩ := by
  subst hn
  rw [Fin.sum_univ_add]
  rfl

/-- The score as ONE sum over the 1792 coordinates of the combining row, the summand's second factor `g c` being any function
    that is the text projection's tangent below 1024 and the aspect projection's from 1024 on. -/
theorem scores_eq_sum (X : Fin 512 → Fin 1024 → EReal) (Y : Fin 512 → Fin 768 → EReal) (Wt : Fin 1024 → Fin 1024 → EReal)
    (Wa : Fin 768 → Fin 768 → EReal) (Wc : Fin 1792 → EReal) (s : Fin 512) (g : Fin 1792 → EReal)
    (hlo : ∀ h : Fin 1024, g ⟨h.val, by omega⟩ = Ideal.tanh (proj Wt X h s))
    (hhi : ∀ e : Fin 768, g ⟨1024 + e.val, by omega⟩ = Ideal.tanh (proj Wa Y e s)) :
    ∑ c : Fin 1792, Wc c * g c = scores X Y Wt Wa Wc s := by
  rw [sum_split (a := 1024) (b := 768) rfl]
  unfold scores
  congr 1
  · exact Finset.sum_congr rfl fun h _ => by rw [hlo h]
  · exact Finset.sum_congr rfl fun e _ => by rw [hhi e]

end Cert.AttnPool

end
-- ==== Proof.LibPlainProduct.lean ====
/-
  A plain matrix product `[m, k] × [k, n]` read at an index, over arbitrary sizes.

  At the extended reals a kernel's matrix product into a zero accumulator and the host's product of the same operands
  are both the textbook contraction: entry `(a, b)` is `∑ c, A (a, c) · B (c, b)`.
-/
import Idealize.ShloMosaic.Lib.StackMember
import Idealize.ShloMosaic.Lib.KernelVsHost

noncomputable section

namespace Cert.PlainProduct

open Idealize.ShloMosaic Idealize.ShloMosaic.ValueIdx Idealize.ShloMosaic.StackMember

variable {m k n : Nat} {φ₁ φ₂ : FTy}

/-- A kernel's plain product into the zero splat, at `(a, b)`: the sum over the contracted coordinate. -/
theorem matmul_plain_apply (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  rw [matmul_zero_eq_dotGeneral]
  exact dotGeneral_plain_apply prec A B a b

/-- The host's plain product at `(a, b)`. -/
theorem dotGeneral_plain_apply' (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    Host.dotGeneral d prec A B (ix2 a b) = ∑ c : Fin k, A (ix2 a c) * B (ix2 c b) := by
  subst hd
  exact dotGeneral_plain_apply prec A B a b

end Cert.PlainProduct

end
-- ==== Proof.LibTransposedProduct.lean ====
/-
  A matrix product with both operands contracted along their LAST axis, read at an index, over arbitrary sizes.

  For an `[m, k]` operand `A` and an `[n, k]` operand `B` the product entry `(a, b)` is `∑ c, A (a, c) · B (b, c)`:
  `A · Bᵀ`. At the extended reals a kernel's product into a zero accumulator and the host's product of the same
  operands are both this sum.
-/
import Idealize.ShloMosaic.Lib.ValueIdx
import Idealize.ShloMosaic.PureOps.Ideal.Laws

noncomputable section

namespace Cert.Lib.TransposedProduct

open Idealize.ShloMosaic Idealize.ShloMosaic.ValueIdx

variable {m k n : Nat} {φ₁ φ₂ : FTy}

/-- The left operand is read at `(a, c)` and the right one at `(b, c)`, for output index `(a, b)` and contracted
    coordinate `c`. -/
theorem lhsIdx_eq (a : Fin m) (b : Fin n) (c : Fin k) :
    (DotDims.transposedRhs m k n).lhsIdx (ix2 a b) ((contrEquiv1 (DotDims.transposedRhs m k n) k rfl rfl).symm c) = ix2 a c := by
  have c2 := contrEquiv1_symm_val (DotDims.transposedRhs m k n) k rfl rfl c
  funext ax; apply Fin.ext
  match ax with
  | ⟨0, _⟩ => simp [DotDims.lhsIdx, DotDims.transposedRhs]; rfl
  | ⟨1, _⟩ => simp [DotDims.lhsIdx, DotDims.transposedRhs]; exact c2

theorem rhsIdx_eq (a : Fin m) (b : Fin n) (c : Fin k) :
    (DotDims.transposedRhs m k n).rhsIdx (ix2 a b) ((contrEquiv1 (DotDims.transposedRhs m k n) k rfl rfl).symm c) = ix2 b c := by
  have c2 := contrEquiv1_symm_val (DotDims.transposedRhs m k n) k rfl rfl c
  funext ax; apply Fin.ext
  match ax with
  | ⟨0, _⟩ => simp [DotDims.rhsIdx, DotDims.transposedRhs]; rfl
  | ⟨1, _⟩ => simp [DotDims.rhsIdx, DotDims.transposedRhs]; exact c2

/-- A kernel's product into the zero splat, at `(a, b)`: the sum over the contracted coordinate. -/
theorem matmul_apply (d : DotDims ⟨2, ![m, k]⟩ ⟨2, ![n, k]⟩ ⟨2, ![m, n]⟩) (hd : d = DotDims.transposedRhs m k n)
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  subst hd
  show FloatOps.matmul _ prec A B (constant ⟨2, ![m, n]⟩ .f32 0x00000000#32) (ix2 a b) = _
  rw [Ideal.matmul_constant_zero_apply, ← Equiv.sum_comp (contrEquiv1 (DotDims.transposedRhs m k n) k rfl rfl).symm]
  refine Finset.sum_congr rfl fun c _ => ?_
  rw [lhsIdx_eq, rhsIdx_eq]

/-- The host's product at `(a, b)`. -/
theorem dotGeneral_apply (d : DotDims ⟨2, ![m, k]⟩ ⟨2, ![n, k]⟩ ⟨2, ![m, n]⟩) (hd : d = DotDims.transposedRhs m k n)
    (prec : Option ContractPrecision) (A : FVec Ideal ⟨2, ![m, k]⟩ φ₁) (B : FVec Ideal ⟨2, ![n, k]⟩ φ₂)
    (a : Fin m) (b : Fin n) :
    Host.dotGeneral d prec A B (ix2 a b) = ∑ c : Fin k, A (ix2 a c) * B (ix2 b c) := by
  subst hd
  show FloatOps.dotGeneral _ prec _ A B (ix2 a b) = _
  rw [Ideal.dotGeneral_apply, ← Equiv.sum_comp (contrEquiv1 (DotDims.transposedRhs m k n) k rfl rfl).symm]
  refine Finset.sum_congr rfl fun c _ => ?_
  rw [lhsIdx_eq, rhsIdx_eq]

end Cert.Lib.TransposedProduct

end
-- ==== Proof.BodyScores.lean ====
/-
  The kernel body's scores, read at an index.

  At one grid point the body holds one sequence: its text block [1, 512, 1024], aspect block [1, 512, 768], the two weight
  blocks [1, 1024, 1024] and [1, 768, 768] and the combining row [1, 1, 1792]. It drops the leading unit axis, multiplies
  each weight matrix by the transposed block (a product contracting both operands' last axis, into a zero accumulator),
  takes hyperbolic tangents, cuts the combining row into its first 1024 and last 768 columns, multiplies each part by its
  tangent matrix (plain products into zero accumulators) and adds the two [1, 512] rows. Changes of float format are the
  identity on the extended reals. At `(0, s)` the sum is the specification's score of the block's sequence at position `s`.
-/
import proofs.«172801_j82643760710180_2_alg».proof.Proof.Gen.KernelIdeal.Skeleton
import proofs.«172801_j82643760710180_2_alg».proof.Proof.Spec
import proofs.«172801_j82643760710180_2_alg».proof.Proof.LibPlainProduct
import proofs.«172801_j82643760710180_2_alg».proof.Proof.LibTransposedProduct
import Idealize.ShloMosaic.Lib.ValueLayout
import Idealize.ShloMosaic.Lib.Pipeline.Value

noncomputable section

namespace Cert.AttnPool.Body

open Cert.KernelIdeal Cert.KernelIdeal.Gen Idealize.ShloMosaic Idealize.ShloMosaic.ValueIdx
open Cert.AttnPool

variable (P0 : Vec Ideal S1x512x1024 .f32) (P1 : Vec Ideal S1x512x768 .f32) (P2 : Vec Ideal S1x1024x1024 .f32)
  (P3 : Vec Ideal S1x768x768 .f32) (P4 : Vec Ideal S1x1x1792 .f32)

/-- The text weight matrix times the transposed text block. -/
def textProd : FVec Ideal S1024x512 .f32 :=
  matmul dot_S1024x1024_S512x1024_S1024x512_1_1_0_0_n_n none
    (truncf .bf16 (shapeCast S1024x1024 P2 shapeCasts_S1x1024x1024_S1024x1024) bitsLt_bf16_f32)
    (k0_pay4 P0) (constant S1024x512 .f32 0x00000000#32)

/-- The aspect weight matrix times the transposed aspect block. -/
def aspectProd : FVec Ideal S768x512 .f32 :=
  matmul dot_S768x768_S512x768_S768x512_1_1_0_0_n_n none
    (truncf .bf16 (shapeCast S768x768 P3 shapeCasts_S1x768x768_S768x768) bitsLt_bf16_f32)
    (truncf .bf16 (shapeCast S512x768 P1 shapeCasts_S1x512x768_S512x768) bitsLt_bf16_f32)
    (constant S768x512 .f32 0x00000000#32)

/-- The row of scores, as the body computes it. -/
def scoreVec : FVec Ideal S1x512 .f32 :=
  addf
    (matmul dot_S1x1024_S1024x512_S1x512_1_0_0_1_n_n none
      (truncf .bf16 (extractStridedSlice S1x1024 ![0, 0] (shapeCast S1x1792 P4 shapeCasts_S1x1x1792_S1x1792) slices_S1x1792_o0_0_S1x1024) bitsLt_bf16_f32)
      (truncf .bf16 (tanh (textProd P0 P2)) bitsLt_bf16_f32) (constant S1x512 .f32 0x00000000#32))
    (matmul dot_S1x768_S768x512_S1x512_1_0_0_1_n_n none
      (truncf .bf16 (extractStridedSlice S1x768 ![0, 1024] (shapeCast S1x1792 P4 shapeCasts_S1x1x1792_S1x1792) slices_S1x1792_o0_1024_S1x768) bitsLt_bf16_f32)
      (truncf .bf16 (tanh (aspectProd P1 P3)) bitsLt_bf16_f32) (constant S1x512 .f32 0x00000000#32))

/-- The text product at `(h, s)`. -/
theorem textProd_apply (h : Fin 1024) (s : Fin 512) :
    textProd P0 P2 (ix2 h s) = proj (slab P2 0) (slab P0 0) h s := by
  unfold textProd
  refine (Cert.Lib.TransposedProduct.matmul_apply _ rfl none _ _ h s).trans ?_
  unfold proj slab
  refine Finset.sum_congr rfl fun c _ => ?_
  show shapeCast S1024x1024 P2 shapeCasts_S1x1024x1024_S1024x1024 (ix2 h c)
      * shapeCast S512x1024 P0 shapeCasts_S1x512x1024_S512x1024 (ix2 s c) = _
  rw [shapeCast_1ab_ab_apply, shapeCast_1ab_ab_apply]

/-- The aspect product at `(e, s)`. -/
theorem aspectProd_apply (e : Fin 768) (s : Fin 512) :
    aspectProd P1 P3 (ix2 e s) = proj (slab P3 0) (slab P1 0) e s := by
  unfold aspectProd
  refine (Cert.Lib.TransposedProduct.matmul_apply _ rfl none _ _ e s).trans ?_
  unfold proj slab
  refine Finset.sum_congr rfl fun c _ => ?_
  show shapeCast S768x768 P3 shapeCasts_S1x768x768_S768x768 (ix2 e c)
      * shapeCast S512x768 P1 shapeCasts_S1x512x768_S512x768 (ix2 s c) = _
  rw [shapeCast_1ab_ab_apply, shapeCast_1ab_ab_apply]

/-- The body's score at `(0, s)` is the specification's. -/
theorem scoreVec_apply (s : Fin 512) :
    scoreVec P0 P1 P2 P3 P4 (ix2 0 s) = scores (slab P0 0) (slab P1 0) (slab P2 0) (slab P3 0) (slabRow P4 0) s := by
  unfold scoreVec scores
  show _ + _ = _ + _
  congr 1
  · refine (Cert.PlainProduct.matmul_plain_apply _ rfl none _ _ 0 s).trans ?_
    refine Finset.sum_congr rfl fun c _ => ?_
    show extractStridedSlice S1x1024 ![0, 0] (shapeCast S1x1792 P4 shapeCasts_S1x1x1792_S1x1792) slices_S1x1792_o0_0_S1x1024 (ix2 0 c)
        * Ideal.tanh (textProd P0 P2 (ix2 c s)) = _
    rw [slice2_axis1_apply 0 _ _ 0 c (⟨c.val, by omega⟩ : Fin 1792) (by simp), shapeCast_1ab_ab_apply, textProd_apply]
    rfl
  · refine (Cert.PlainProduct.matmul_plain_apply _ rfl none _ _ 0 s).trans ?_
    refine Finset.sum_congr rfl fun c _ => ?_
    show extractStridedSlice S1x768 ![0, 1024] (shapeCast S1x1792 P4 shapeCasts_S1x1x1792_S1x1792) slices_S1x1792_o0_1024_S1x768 (ix2 0 c)
        * Ideal.tanh (aspectProd P1 P3 (ix2 c s)) = _
    rw [slice2_axis1_apply 1024 _ _ 0 c (⟨1024 + c.val, by omega⟩ : Fin 1792) rfl, shapeCast_1ab_ab_apply, aspectProd_apply]
    rfl

end Cert.AttnPool.Body

end
-- ==== Proof.BodySoftmax.lean ====
/-
  The kernel body's two stored blocks, read at an index.

  From its row of scores the body takes the largest entry from −∞ (a lane maximum, then once more `max` with −∞), repeats it
  along the row, subtracts, exponentiates, sums the exponentials along the row, repeats the sum, divides — the softmax
  weights, stored as the first block — and multiplies the one-row weight matrix by the text block (a plain product into a
  zero accumulator), stored as the second block. At `(0, 0, s)` and `(0, 0, h)` these are the specification's weight and
  pooled row of the block's sequence.
-/
import proofs.«172801_j82643760710180_2_alg».proof.Proof.BodyScores
import Idealize.ShloMosaic.PureOps.Ideal.Laws

noncomputable section

namespace Cert.AttnPool.Body

open Cert.KernelIdeal Cert.KernelIdeal.Gen Idealize.ShloMosaic Idealize.ShloMosaic.ValueIdx
open Cert.AttnPool

/-- A one-entry vector made a [1, 1] matrix and repeated along 512 columns holds that entry everywhere. -/
theorem keepdims_apply {α : Type} (M : S1.Idx → α) (s : Fin 512) :
    broadcastTo S1x512 (shapeCast S1x1 M shapeCasts_S1_S1x1) broadcasts_S1x1_S1x512 (ix2 0 s) = M (ix1 0) := by
  refine (broadcastTo_apply _ broadcasts_S1x1_S1x512 (ix2 (0 : Fin 1) s) (ix2 (0 : Fin 1) (0 : Fin 1)) (fun a => ?_)).trans ?_
  · match a with
    | ⟨0, _⟩ => show (0 : Nat) = if (1 : Nat) = 1 then 0 else _; rw [if_pos rfl]
    | ⟨1, _⟩ => show (0 : Nat) = if (1 : Nat) = 1 then 0 else _; rw [if_pos rfl]
  · exact shapeCast_a_1a_apply M shapeCasts_S1_S1x1 0 0

/-- A lane index of the [1, 512] row completed from the one result index. -/
theorem lift_lane (k : Fin 512) : reduces_S1x512_S1.lift (ix1 (0 : Fin 1)) k = ix2 (0 : Fin 1) k :=
  funext fun a => Fin.ext (by match a with | ⟨0, _⟩ => rfl | ⟨1, _⟩ => rfl)

/-- The shift of the body's softmax, as the body computes it from a row `z`. -/
def shiftVec (z : FVec Ideal S1x512 .f32) : FVec Ideal S1 .f32 :=
  maximumf (broadcast S1 (Scalar.ofBits .f32 0xFF800000#32))
    (multiReduction .maximumf [1] S1 z 0xFF800000#32 reduces_S1x512_S1 (.inl rfl) rfl)

/-- It is the specification's shift of the row. -/
theorem shiftVec_apply (z : FVec Ideal S1x512 .f32) : shiftVec z (ix1 0) = rowMax (fun s => z (ix2 0 s)) := by
  unfold shiftVec rowMax
  show max negInf (multiReduction .maximumf [1] S1 z 0xFF800000#32 reduces_S1x512_S1 (.inl rfl) rfl (ix1 0)) = max negInf _
  refine congrArg (max negInf) ?_
  refine (Ideal.multiReduction_maximumf_single z 0xFF800000#32 reduces_S1x512_S1 (.inl rfl) rfl (ix1 0)).trans ?_
  exact congrArg (fun f => (Finset.univ : Finset (Fin 512)).fold max negInf f)
    (funext fun k => congrArg z (lift_lane k))

variable (P0 : Vec Ideal S1x512x1024 .f32) (P1 : Vec Ideal S1x512x768 .f32) (P2 : Vec Ideal S1x1024x1024 .f32)
  (P3 : Vec Ideal S1x768x768 .f32) (P4 : Vec Ideal S1x1x1792 .f32)

/-- The body's row of shifted exponentials is the exponential of its scores less their shift repeated along the row. -/
theorem pay5_eq : k0_pay5 P0 P1 P2 P3 P4
    = exp (subf (scoreVec P0 P1 P2 P3 P4)
        (broadcastTo S1x512 (shapeCast S1x1 (shiftVec (scoreVec P0 P1 P2 P3 P4)) shapeCasts_S1_S1x1) broadcasts_S1x1_S1x512)) := rfl

/-- The shifted exponential at `(0, s)`. -/
theorem pay5_apply (s : Fin 512) :
    k0_pay5 P0 P1 P2 P3 P4 (ix2 0 s)
      = expShift (scores (slab P0 0) (slab P1 0) (slab P2 0) (slab P3 0) (slabRow P4 0)) s := by
  rw [pay5_eq]
  show Ideal.exp (scoreVec P0 P1 P2 P3 P4 (ix2 0 s)
      - broadcastTo S1x512 (shapeCast S1x1 (shiftVec (scoreVec P0 P1 P2 P3 P4)) shapeCasts_S1_S1x1) broadcasts_S1x1_S1x512 (ix2 0 s)) = _
  have hz : (fun s => scoreVec P0 P1 P2 P3 P4 (ix2 0 s))
      = scores (slab P0 0) (slab P1 0) (slab P2 0) (slab P3 0) (slabRow P4 0) := funext (scoreVec_apply P0 P1 P2 P3 P4)
  rw [keepdims_apply, shiftVec_apply, hz, scoreVec_apply]
  rfl

/-- The repeated sum of the shifted exponentials at `(0, s)`. -/
theorem pay6_apply (s : Fin 512) :
    k0_pay6 P0 P1 P2 P3 P4 (ix2 0 s)
      = ∑ k : Fin 512, expShift (scores (slab P0 0) (slab P1 0) (slab P2 0) (slab P3 0) (slabRow P4 0)) k := by
  show broadcastTo S1x512 (shapeCast S1x1 (multiReduction .add [1] S1 (k0_pay5 P0 P1 P2 P3 P4) 0x00000000#32 reduces_S1x512_S1 (.inl rfl) rfl)
      shapeCasts_S1_S1x1) broadcasts_S1x1_S1x512 (ix2 0 s) = _
  refine (keepdims_apply _ s).trans ?_
  refine (Ideal.multiReduction_add_single (k0_pay5 P0 P1 P2 P3 P4) 0x00000000#32 reduces_S1x512_S1 (.inl rfl) rfl (ix1 0)).trans ?_
  show ∑ k : Fin 512, k0_pay5 P0 P1 P2 P3 P4 (reduces_S1x512_S1.lift (ix1 (0 : Fin 1)) k) = _
  refine Finset.sum_congr rfl fun k _ => ?_
  rw [lift_lane, pay5_apply]

/-- The first stored block at `(0, 0, s)`: the attention weight. -/
theorem weight_block (s : Fin 512) :
    k0_pay2 (k0_pay5 P0 P1 P2 P3 P4) (k0_pay6 P0 P1 P2 P3 P4) (ix3 0 0 s)
      = weight (slab P0 0) (slab P1 0) (slab P2 0) (slab P3 0) (slabRow P4 0) s := by
  show shapeCast S1x1x512 (divf (k0_pay5 P0 P1 P2 P3 P4) (k0_pay6 P0 P1 P2 P3 P4)) shapeCasts_S1x512_S1x1x512 (ix3 0 0 s) = _
  refine (shapeCast_ab_1ab_apply _ shapeCasts_S1x512_S1x1x512 0 0 s).trans ?_
  show Ideal.div (k0_pay5 P0 P1 P2 P3 P4 (ix2 0 s)) (k0_pay6 P0 P1 P2 P3 P4 (ix2 0 s)) = _
  rw [pay5_apply, pay6_apply]
  rfl

/-- The second stored block at `(0, 0, h)`: the pooled text row. -/
theorem pooled_block (h : Fin 1024) :
    k0_pay3 (k0_pay4 P0) (k0_pay5 P0 P1 P2 P3 P4) (k0_pay6 P0 P1 P2 P3 P4) (ix3 0 0 h)
      = pooled (slab P0 0) (slab P1 0) (slab P2 0) (slab P3 0) (slabRow P4 0) h := by
  show shapeCast S1x1x1024 (matmul dot_S1x512_S512x1024_S1x1024_1_0_0_1_n_n none
      (truncf .bf16 (divf (k0_pay5 P0 P1 P2 P3 P4) (k0_pay6 P0 P1 P2 P3 P4)) bitsLt_bf16_f32) (k0_pay4 P0)
      (constant S1x1024 .f32 0x00000000#32)) shapeCasts_S1x1024_S1x1x1024 (ix3 0 0 h) = _
  refine (shapeCast_ab_1ab_apply _ shapeCasts_S1x1024_S1x1x1024 0 0 h).trans ?_
  refine (Cert.PlainProduct.matmul_plain_apply _ rfl none _ _ 0 h).trans ?_
  unfold pooled
  refine Finset.sum_congr rfl fun k _ => ?_
  show Ideal.div (k0_pay5 P0 P1 P2 P3 P4 (ix2 0 k)) (k0_pay6 P0 P1 P2 P3 P4 (ix2 0 k))
      * shapeCast S512x1024 P0 shapeCasts_S1x512x1024_S512x1024 (ix2 k h) = _
  rw [pay5_apply, pay6_apply, shapeCast_1ab_ab_apply]
  rfl

end Cert.AttnPool.Body

end
-- ==== Proof.BodyArrays.lean ====
/-
  The kernel body's stored blocks as blocks of the two result arrays.

  If the five blocks the body holds are sequence `b` of the five argument arrays, then what it stores at `(0, 0, s)` and
  `(0, 0, h)` is the specification's weight array at `(b, 0, s)` and pooled array at `(b, 0, h)`: the specification of a
  sequence reads only that sequence's slabs.
-/
import proofs.«172801_j82643760710180_2_alg».proof.Proof.BodySoftmax

noncomputable section

namespace Cert.AttnPool.Body

open Cert.KernelIdeal Cert.KernelIdeal.Gen Idealize.ShloMosaic Idealize.ShloMosaic.ValueIdx
open Cert.AttnPool

variable (P0 : Vec Ideal S1x512x1024 .f32) (P1 : Vec Ideal S1x512x768 .f32) (P2 : Vec Ideal S1x1024x1024 .f32)
  (P3 : Vec Ideal S1x768x768 .f32) (P4 : Vec Ideal S1x1x1792 .f32)
  (A0 : S64x512x1024.Idx → EReal) (A1 : S64x512x768.Idx → EReal) (A2 : S64x1024x1024.Idx → EReal)
  (A3 : S64x768x768.Idx → EReal) (A4 : S64x1x1792.Idx → EReal) (b : Fin 64)

/-- The first stored block against the weight array. -/
theorem weight_block_of (h0 : ∀ (s : Fin 512) (k : Fin 1024), P0 (ix3 0 s k) = A0 (ix3 b s k))
    (h1 : ∀ (s : Fin 512) (f : Fin 768), P1 (ix3 0 s f) = A1 (ix3 b s f))
    (h2 : ∀ (h k : Fin 1024), P2 (ix3 0 h k) = A2 (ix3 b h k))
    (h3 : ∀ (e f : Fin 768), P3 (ix3 0 e f) = A3 (ix3 b e f))
    (h4 : ∀ c : Fin 1792, P4 (ix3 0 0 c) = A4 (ix3 b 0 c)) (s : Fin 512) :
    k0_pay2 (k0_pay5 P0 P1 P2 P3 P4) (k0_pay6 P0 P1 P2 P3 P4) (ix3 0 0 s) = weightArr A0 A1 A2 A3 A4 (ix3 b 0 s) := by
  rw [weight_block]
  show weight (slab P0 0) (slab P1 0) (slab P2 0) (slab P3 0) (slabRow P4 0) s
      = weight (slab A0 b) (slab A1 b) (slab A2 b) (slab A3 b) (slabRow A4 b) s
  have e0 : slab P0 0 = slab A0 b := funext fun s => funext fun k => h0 s k
  have e1 : slab P1 0 = slab A1 b := funext fun s => funext fun f => h1 s f
  have e2 : slab P2 0 = slab A2 b := funext fun h => funext fun k => h2 h k
  have e3 : slab P3 0 = slab A3 b := funext fun e => funext fun f => h3 e f
  have e4 : slabRow P4 0 = slabRow A4 b := funext fun c => h4 c
  rw [e0, e1, e2, e3, e4]

/-- The second stored block against the pooled array. -/
theorem pooled_block_of (h0 : ∀ (s : Fin 512) (k : Fin 1024), P0 (ix3 0 s k) = A0 (ix3 b s k))
    (h1 : ∀ (s : Fin 512) (f : Fin 768), P1 (ix3 0 s f) = A1 (ix3 b s f))
    (h2 : ∀ (h k : Fin 1024), P2 (ix3 0 h k) = A2 (ix3 b h k))
    (h3 : ∀ (e f : Fin 768), P3 (ix3 0 e f) = A3 (ix3 b e f))
    (h4 : ∀ c : Fin 1792, P4 (ix3 0 0 c) = A4 (ix3 b 0 c)) (h : Fin 1024) :
    k0_pay3 (k0_pay4 P0) (k0_pay5 P0 P1 P2 P3 P4) (k0_pay6 P0 P1 P2 P3 P4) (ix3 0 0 h) = pooledArr A0 A1 A2 A3 A4 (ix3 b 0 h) := by
  rw [pooled_block]
  show pooled (slab P0 0) (slab P1 0) (slab P2 0) (slab P3 0) (slabRow P4 0) h
      = pooled (slab A0 b) (slab A1 b) (slab A2 b) (slab A3 b) (slabRow A4 b) h
  have e0 : slab P0 0 = slab A0 b := funext fun s => funext fun k => h0 s k
  have e1 : slab P1 0 = slab A1 b := funext fun s => funext fun f => h1 s f
  have e2 : slab P2 0 = slab A2 b := funext fun h => funext fun k => h2 h k
  have e3 : slab P3 0 = slab A3 b := funext fun e => funext fun f => h3 e f
  have e4 : slabRow P4 0 = slabRow A4 b := funext fun c => h4 c
  rw [e0, e1, e2, e3, e4]

end Cert.AttnPool.Body

end
-- ==== Proof.Blocks.lean ====
/-
  From the grid points' blocks to the two result arrays.

  The grid has 64 points; at point `t` every window's block index is `(t, 0, 0)`, so each input block is sequence `t` of its
  argument array and each output block is row `t` of its result array. What point `t` writes back is therefore block `t` of
  the specification's weight array (first result) and pooled array (second result) of the argument arrays; the 64 blocks
  cover each result array, so after the run the result arrays ARE those two arrays.
-/
import proofs.«172801_j82643760710180_2_alg».proof.Proof.KernelIdealValue
import proofs.«172801_j82643760710180_2_alg».proof.Proof.BodyArrays

noncomputable section

namespace Cert.AttnPool.Blocks

open Cert.KernelIdeal Cert.KernelIdeal.Gen Idealize.ShloMosaic Idealize.ShloMosaic.TcCoe Idealize.SL.Sem
open Idealize.ShloMosaic.ValueIdx
open Idealize.ShloMosaic.Pipeline (Dat)
open Cert.AttnPool

variable (m : (ℓ : Loc nD τ sig) → Buf (Elt Ideal) ℓ) (ρ : Dev nD → PrngReg)

theorem zero_offsets : (![0, 0, 0] : Fin 3 → Nat) = fun _ => 0 := funext fun a => by fin_cases a <;> rfl

/-- The printed index maps, decided over the grid: at point `t` every window's block index is `(t, 0, 0)`. -/
theorem index_facts : ∀ t : Fin cfg0.N,
    win0_0.index t (0 : Fin 3) = t.val
    ∧ win0_0.index t (1 : Fin 3) = 0
    ∧ win0_0.index t (2 : Fin 3) = 0
    ∧ win0_1.index t (0 : Fin 3) = t.val
    ∧ win0_1.index t (1 : Fin 3) = 0
    ∧ win0_1.index t (2 : Fin 3) = 0
    ∧ win0_2.index t (0 : Fin 3) = t.val
    ∧ win0_2.index t (1 : Fin 3) = 0
    ∧ win0_2.index t (2 : Fin 3) = 0
    ∧ win0_3.index t (0 : Fin 3) = t.val
    ∧ win0_3.index t (1 : Fin 3) = 0
    ∧ win0_3.index t (2 : Fin 3) = 0
    ∧ win0_4.index t (0 : Fin 3) = t.val
    ∧ win0_4.index t (1 : Fin 3) = 0
    ∧ win0_4.index t (2 : Fin 3) = 0
    ∧ win0_5.index t (0 : Fin 3) = t.val
    ∧ win0_5.index t (1 : Fin 3) = 0
    ∧ win0_5.index t (2 : Fin 3) = 0
    ∧ win0_6.index t (0 : Fin 3) = t.val
    ∧ win0_6.index t (1 : Fin 3) = 0
    ∧ win0_6.index t (2 : Fin 3) = 0 :=
  (by decide +kernel : ∀ t : Fin grid0.N, _)

/-- The sequence a grid point works on. -/
def seqOf (t : Fin cfg0.N) : Fin 64 := ⟨t.val, by have h := t.isLt; have hN : cfg0.N = 64 := N_0; omega⟩

/-- Input window 0's block at point `t`, at `(0, s, k)`, is argument 0 at `(t, s, k)`. -/
theorem read0 (c : Dev nD) (t : Fin cfg0.N) (s : Fin 512) (k : Fin 1024) :
    iblk m c 0 t (ix3 0 s k) = V m c main_arg0 (ix3 (seqOf t) s k) := by
  show V m c main_arg0 (((cfg0.win 0).blk t).view.emb (ix3 0 s k)) = _
  obtain ⟨f00, f01, f02, f10, f11, f12, f20, f21, f22, f30, f31, f32, f40, f41, f42, f50, f51, f52, f60, f61, f62⟩ := index_facts t
  refine congrArg _ (funext fun a => Fin.ext ?_)
  match a with
  | ⟨0, _⟩ => show win0_0.index t (0 : Fin 3) * 1 + 1 * 0 = t.val; omega
  | ⟨1, _⟩ => show win0_0.index t (1 : Fin 3) * 512 + 1 * s.val = s.val; omega
  | ⟨2, _⟩ => show win0_0.index t (2 : Fin 3) * 1024 + 1 * k.val = k.val; omega

/-- Input window 1's block at point `t`, at `(0, s, f)`, is argument 1 at `(t, s, f)`. -/
theorem read1 (c : Dev nD) (t : Fin cfg0.N) (s : Fin 512) (f : Fin 768) :
    iblk m c 1 t (ix3 0 s f) = V m c main_arg1 (ix3 (seqOf t) s f) := by
  show V m c main_arg1 (((cfg0.win 1).blk t).view.emb (ix3 0 s f)) = _
  obtain ⟨f00, f01, f02, f10, f11, f12, f20, f21, f22, f30, f31, f32, f40, f41, f42, f50, f51, f52, f60, f61, f62⟩ := index_facts t
  refine congrArg _ (funext fun a => Fin.ext ?_)
  match a with
  | ⟨0, _⟩ => show win0_1.index t (0 : Fin 3) * 1 + 1 * 0 = t.val; omega
  | ⟨1, _⟩ => show win0_1.index t (1 : Fin 3) * 512 + 1 * s.val = s.val; omega
  | ⟨2, _⟩ => show win0_1.index t (2 : Fin 3) * 768 + 1 * f.val = f.val; omega

/-- Input window 2's block at point `t`, at `(0, h, k)`, is argument 2 at `(t, h, k)`. -/
theorem read2 (c : Dev nD) (t : Fin cfg0.N) (h : Fin 1024) (k : Fin 1024) :
    iblk m c 2 t (ix3 0 h k) = V m c main_arg2 (ix3 (seqOf t) h k) := by
  show V m c main_arg2 (((cfg0.win 2).blk t).view.emb (ix3 0 h k)) = _
  obtain ⟨f00, f01, f02, f10, f11, f12, f20, f21, f22, f30, f31, f32, f40, f41, f42, f50, f51, f52, f60, f61, f62⟩ := index_facts t
  refine congrArg _ (funext fun a => Fin.ext ?_)
  match a with
  | ⟨0, _⟩ => show win0_2.index t (0 : Fin 3) * 1 + 1 * 0 = t.val; omega
  | ⟨1, _⟩ => show win0_2.index t (1 : Fin 3) * 1024 + 1 * h.val = h.val; omega
  | ⟨2, _⟩ => show win0_2.index t (2 : Fin 3) * 1024 + 1 * k.val = k.val; omega

/-- Input window 3's block at point `t`, at `(0, e, f)`, is argument 3 at `(t, e, f)`. -/
theorem read3 (c : Dev nD) (t : Fin cfg0.N) (e : Fin 768) (f : Fin 768) :
    iblk m c 3 t (ix3 0 e f) = V m c main_arg3 (ix3 (seqOf t) e f) := by
  show V m c main_arg3 (((cfg0.win 3).blk t).view.emb (ix3 0 e f)) = _
  obtain ⟨f00, f01, f02, f10, f11, f12, f20, f21, f22, f30, f31, f32, f40, f41, f42, f50, f51, f52, f60, f61, f62⟩ := index_facts t
  refine congrArg _ (funext fun a => Fin.ext ?_)
  match a with
  | ⟨0, _⟩ => show win0_3.index t (0 : Fin 3) * 1 + 1 * 0 = t.val; omega
  | ⟨1, _⟩ => show win0_3.index t (1 : Fin 3) * 768 + 1 * e.val = e.val; omega
  | ⟨2, _⟩ => show win0_3.index t (2 : Fin 3) * 768 + 1 * f.val = f.val; omega

/-- Input window 4's block at point `t`, at `(0, 0, j)`, is argument 4 at `(t, 0, j)`. -/
theorem read4 (c : Dev nD) (t : Fin cfg0.N) (j : Fin 1792) :
    iblk m c 4 t (ix3 0 0 j) = V m c main_arg4 (ix3 (seqOf t) 0 j) := by
  show V m c main_arg4 (((cfg0.win 4).blk t).view.emb (ix3 0 0 j)) = _
  obtain ⟨f00, f01, f02, f10, f11, f12, f20, f21, f22, f30, f31, f32, f40, f41, f42, f50, f51, f52, f60, f61, f62⟩ := index_facts t
  refine congrArg _ (funext fun a => Fin.ext ?_)
  match a with
  | ⟨0, _⟩ => show win0_4.index t (0 : Fin 3) * 1 + 1 * 0 = t.val; omega
  | ⟨1, _⟩ => show win0_4.index t (1 : Fin 3) * 1 + 1 * 0 = 0; omega
  | ⟨2, _⟩ => show win0_4.index t (2 : Fin 3) * 1792 + 1 * j.val = j.val; omega

/-! ## The first result: the attention weights -/

/-- WHAT POINT `t` WRITES BACK to the first result is block `t` of the weight array of the argument arrays. -/
theorem flushed_weight (c : Dev nD) (t : Fin cfg0.N) :
    (dats m 0 c).flushed 5 t = ((cfg0.win 5).blk t).view.read (Elt Ideal)
      (weightArr (V m c main_arg0) (V m c main_arg1) (V m c main_arg2) (V m c main_arg3) (V m c main_arg4)) := by
  rw [Cert.KernelIdeal.ValueP.flushed5]
  unfold out0_5
  rw [View.canon_unit_zero zero_offsets]
  simp only [View.ld_unit_zero (S := S1x512x1024) zero_offsets, View.ld_unit_zero (S := S1x512x768) zero_offsets,
    View.ld_unit_zero (S := S1x1024x1024) zero_offsets, View.ld_unit_zero (S := S1x768x768) zero_offsets,
    View.ld_unit_zero (S := S1x1x1792) zero_offsets]
  funext j
  obtain ⟨u, v, s, rfl⟩ : ∃ (u : Fin 1) (v : Fin 1) (s : Fin 512), j = ix3 u v s := ⟨j 0, j 1, j 2, eq_ix3 j⟩
  obtain rfl : u = 0 := Subsingleton.elim _ _
  obtain rfl : v = 0 := Subsingleton.elim _ _
  show k0_pay2 (k0_pay5 (iblk m c 0 t) (iblk m c 1 t) (iblk m c 2 t) (iblk m c 3 t) (iblk m c 4 t))
      (k0_pay6 (iblk m c 0 t) (iblk m c 1 t) (iblk m c 2 t) (iblk m c 3 t) (iblk m c 4 t)) (ix3 0 0 s)
    = weightArr (V m c main_arg0) (V m c main_arg1) (V m c main_arg2) (V m c main_arg3) (V m c main_arg4)
        (((cfg0.win 5).blk t).view.emb (ix3 0 0 s))
  have e : ((cfg0.win 5).blk t).view.emb (ix3 0 0 s) = ix3 (seqOf t) 0 s := by
    obtain ⟨f00, f01, f02, f10, f11, f12, f20, f21, f22, f30, f31, f32, f40, f41, f42, f50, f51, f52, f60, f61, f62⟩ := index_facts t
    refine funext fun a => Fin.ext ?_
    match a with
    | ⟨0, _⟩ => show win0_5.index t (0 : Fin 3) * 1 + 1 * 0 = t.val; omega
    | ⟨1, _⟩ => show win0_5.index t (1 : Fin 3) * 1 + 1 * 0 = 0; omega
    | ⟨2, _⟩ => show win0_5.index t (2 : Fin 3) * 512 + 1 * s.val = s.val; omega
  rw [e]
  exact Body.weight_block_of (iblk m c 0 t) (iblk m c 1 t) (iblk m c 2 t) (iblk m c 3 t) (iblk m c 4 t)
    (V m c main_arg0) (V m c main_arg1) (V m c main_arg2) (V m c main_arg3) (V m c main_arg4) (seqOf t)
    (read0 m c t) (read1 m c t) (read2 m c t) (read3 m c t) (read4 m c t) s

/-- An index of the first result is in point `t`'s block iff each coordinate is in the block's range on its axis. -/
theorem mem_block_weight (t : Fin cfg0.N) (i : S64x1x512.Idx) :
    i ∈ ((cfg0.win 5).blk t).view.set ↔ ∀ a : Fin 3, win0_5.index t a * S1x1x512.size a ≤ (i a).val ∧ (i a).val < win0_5.index t a * S1x1x512.size a + S1x1x512.size a := by
  show i ∈ ((View.whole main_v0_0).slice (win0_5.rect t)).set ↔ _
  rw [View.set_slice_whole, Rect.mem_set_unit]
  exact Iff.rfl

/-- Every index of the first result is in the block of the point that works on its sequence. -/
theorem cover_weight (i : S64x1x512.Idx) :
    ∃ t : Fin cfg0.N, (cfg0.win 5).flush t = true ∧ i ∈ ((cfg0.win 5).blk t).view.set := by
  have hi0 : (i 0).val < 64 := (i 0).isLt
  have hi1 : (i 1).val < 1 := (i 1).isLt
  have hi2 : (i 2).val < 512 := (i 2).isLt
  have hN : cfg0.N = 64 := N_0
  let t : Fin cfg0.N := ⟨(i 0).val, by omega⟩
  have ht : t.val = (i 0).val := rfl
  obtain ⟨f00, f01, f02, f10, f11, f12, f20, f21, f22, f30, f31, f32, f40, f41, f42, f50, f51, f52, f60, f61, f62⟩ := index_facts t
  refine ⟨t, flush0_5 t, ?_⟩
  rw [mem_block_weight]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1 ≤ (i 1).val ∧ (i 1).val < win0_5.index t (1 : Fin 3) * 1 + 1; omega
  | ⟨2, _⟩ => show win0_5.index t (2 : Fin 3) * 512 ≤ (i 2).val ∧ (i 2).val < win0_5.index t (2 : Fin 3) * 512 + 512; omega

/-- THE FIRST RESULT after the run is the weight array of the argument arrays. -/
theorem final_weight (c : Dev nD) : (dats m 0 c).arrAt 5 cfg0.N
    = weightArr (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 5
    (weightArr (V m c main_arg0) (V m c main_arg1) (V m c main_arg2) (V m c main_arg3) (V m c main_arg4))
    (fun t _ => flushed_weight m c t) cover_weight

/-! ## The second result: the pooled text rows -/

/-- WHAT POINT `t` WRITES BACK to the second result is block `t` of the pooled array of the argument arrays. -/
theorem flushed_pooled (c : Dev nD) (t : Fin cfg0.N) :
    (dats m 0 c).flushed 6 t = ((cfg0.win 6).blk t).view.read (Elt Ideal)
      (pooledArr (V m c main_arg0) (V m c main_arg1) (V m c main_arg2) (V m c main_arg3) (V m c main_arg4)) := by
  rw [Cert.KernelIdeal.ValueP.flushed6]
  unfold out0_6
  rw [View.canon_unit_zero zero_offsets]
  simp only [View.ld_unit_zero (S := S1x512x1024) zero_offsets, View.ld_unit_zero (S := S1x512x768) zero_offsets,
    View.ld_unit_zero (S := S1x1024x1024) zero_offsets, View.ld_unit_zero (S := S1x768x768) zero_offsets,
    View.ld_unit_zero (S := S1x1x1792) zero_offsets]
  funext j
  obtain ⟨u, v, h, rfl⟩ : ∃ (u : Fin 1) (v : Fin 1) (h : Fin 1024), j = ix3 u v h := ⟨j 0, j 1, j 2, eq_ix3 j⟩
  obtain rfl : u = 0 := Subsingleton.elim _ _
  obtain rfl : v = 0 := Subsingleton.elim _ _
  show k0_pay3 (k0_pay4 (iblk m c 0 t)) (k0_pay5 (iblk m c 0 t) (iblk m c 1 t) (iblk m c 2 t) (iblk m c 3 t) (iblk m c 4 t))
      (k0_pay6 (iblk m c 0 t) (iblk m c 1 t) (iblk m c 2 t) (iblk m c 3 t) (iblk m c 4 t)) (ix3 0 0 h)
    = pooledArr (V m c main_arg0) (V m c main_arg1) (V m c main_arg2) (V m c main_arg3) (V m c main_arg4)
        (((cfg0.win 6).blk t).view.emb (ix3 0 0 h))
  have e : ((cfg0.win 6).blk t).view.emb (ix3 0 0 h) = ix3 (seqOf t) 0 h := by
    obtain ⟨f00, f01, f02, f10, f11, f12, f20, f21, f22, f30, f31, f32, f40, f41, f42, f50, f51, f52, f60, f61, f62⟩ := index_facts t
    refine funext fun a => Fin.ext ?_
    match a with
    | ⟨0, _⟩ => show win0_6.index t (0 : Fin 3) * 1 + 1 * 0 = t.val; omega
    | ⟨1, _⟩ => show win0_6.index t (1 : Fin 3) * 1 + 1 * 0 = 0; omega
    | ⟨2, _⟩ => show win0_6.index t (2 : Fin 3) * 1024 + 1 * h.val = h.val; omega
  rw [e]
  exact Body.pooled_block_of (iblk m c 0 t) (iblk m c 1 t) (iblk m c 2 t) (iblk m c 3 t) (iblk m c 4 t)
    (V m c main_arg0) (V m c main_arg1) (V m c main_arg2) (V m c main_arg3) (V m c main_arg4) (seqOf t)
    (read0 m c t) (read1 m c t) (read2 m c t) (read3 m c t) (read4 m c t) h

/-- An index of the second result is in point `t`'s block iff each coordinate is in the block's range on its axis. -/
theorem mem_block_pooled (t : Fin cfg0.N) (i : S64x1x1024.Idx) :
    i ∈ ((cfg0.win 6).blk t).view.set ↔ ∀ a : Fin 3, win0_6.index t a * S1x1x1024.size a ≤ (i a).val ∧ (i a).val < win0_6.index t a * S1x1x1024.size a + S1x1x1024.size a := by
  show i ∈ ((View.whole main_v0_1).slice (win0_6.rect t)).set ↔ _
  rw [View.set_slice_whole, Rect.mem_set_unit]
  exact Iff.rfl

/-- Every index of the second result is in the block of the point that works on its sequence. -/
theorem cover_pooled (i : S64x1x1024.Idx) :
    ∃ t : Fin cfg0.N, (cfg0.win 6).flush t = true ∧ i ∈ ((cfg0.win 6).blk t).view.set := by
  have hi0 : (i 0).val < 64 := (i 0).isLt
  have hi1 : (i 1).val < 1 := (i 1).isLt
  have hi2 : (i 2).val < 1024 := (i 2).isLt
  have hN : cfg0.N = 64 := N_0
  let t : Fin cfg0.N := ⟨(i 0).val, by omega⟩
  have ht : t.val = (i 0).val := rfl
  obtain ⟨f00, f01, f02, f10, f11, f12, f20, f21, f22, f30, f31, f32, f40, f41, f42, f50, f51, f52, f60, f61, f62⟩ := index_facts t
  refine ⟨t, flush0_6 t, ?_⟩
  rw [mem_block_pooled]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1 ≤ (i 1).val ∧ (i 1).val < win0_6.index t (1 : Fin 3) * 1 + 1; omega
  | ⟨2, _⟩ => show win0_6.index t (2 : Fin 3) * 1024 ≤ (i 2).val ∧ (i 2).val < win0_6.index t (2 : Fin 3) * 1024 + 1024; omega

/-- THE SECOND RESULT after the run is the pooled array of the argument arrays. -/
theorem final_pooled (c : Dev nD) : (dats m 0 c).arrAt 6 cfg0.N
    = pooledArr (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 6
    (pooledArr (V m c main_arg0) (V m c main_arg1) (V m c main_arg2) (V m c main_arg3) (V m c main_arg4))
    (fun t _ => flushed_pooled m c t) cover_pooled

/-! ## The run -/

/-- The kernel's run: every weakly fair execution terminates with the two results at the specification's arrays of the
    argument arrays, and the arguments unchanged. -/
theorem run : θ_run defs (onTc (τ := τ) (main (F := Ideal))) ⟨m, fun _ => 0, ρ⟩ fun r => ∀ c : Dev nD,
      r.2.mem ((c : Thread nD τ).loc main_v0_0)
        = weightArr (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_v0_1)
        = pooledArr (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_weight m c), (h c).2.1.trans (final_pooled m c), (h c).2.2⟩)
    (Cert.KernelIdeal.ValueP.run_blocks m ρ)

end Cert.AttnPool.Blocks

end
-- ==== Proof.RefScores.lean ====
/-
  The reference's score tensor read at an index.

  The reference transposes the text and aspect stacks, multiplies each by its weight stack, joins the two products along
  the row axis into one [64, 1792, 512] stack, takes the hyperbolic tangent and multiplies by the combining row. At
  `(b, 0, s)` that is one sum over the 1792 joined rows; the rows below 1024 come from the text product and the others from
  the aspect product, so the sum is the specification's score of sequence `b` at position `s`.
-/
import proofs.«172801_j82643760710180_2_alg».proof.Proof.Gen.ReferenceIdeal.Read
import proofs.«172801_j82643760710180_2_alg».proof.Proof.Spec

noncomputable section

namespace Cert.AttnPool.Ref

open Cert.ReferenceIdeal Cert.ReferenceIdeal.Gen Cert.ReferenceIdeal.Read Idealize.ShloMosaic Idealize.ShloMosaic.ValueIdx
open Cert.AttnPool

variable (x0 : (⟨S64x512x1024, .f32⟩ : BufTy).Contents (Elt Ideal)) (x1 : (⟨S64x512x768, .f32⟩ : BufTy).Contents (Elt Ideal))
  (x2 : (⟨S64x1024x1024, .f32⟩ : BufTy).Contents (Elt Ideal)) (x3 : (⟨S64x768x768, .f32⟩ : BufTy).Contents (Elt Ideal))
  (x4 : (⟨S64x1x1792, .f32⟩ : BufTy).Contents (Elt Ideal))

/-- The text product at `(b, h, s)`: row `h` of the weight matrix against the text row of position `s`. -/
theorem text_product (b : Fin 64) (h : Fin 1024) (s : Fin 512) :
    val_main_v2 (F := Ideal) x0 x2 (ix3 b h s) = proj (slab x2 b) (slab x0 b) h s := by
  rw [val_main_v2_apply]
  unfold proj slab
  refine Finset.sum_congr rfl fun k _ => ?_
  rw [val_main_v0_apply]
  have e1 : lidx_main_v2 (ix3 b h s) k = ix3 b h k :=
    funext fun a => Fin.ext (by match a with | ⟨0, _⟩ => rfl | ⟨1, _⟩ => rfl | ⟨2, _⟩ => rfl)
  have e2 : idx_main_v0 (ridx_main_v2 (ix3 b h s) k) = ix3 b s k :=
    funext fun a => Fin.ext (by match a with | ⟨0, _⟩ => rfl | ⟨1, _⟩ => rfl | ⟨2, _⟩ => rfl)
  rw [e1, e2]

/-- The aspect product at `(b, e, s)`. -/
theorem aspect_product (b : Fin 64) (e : Fin 768) (s : Fin 512) :
    val_main_v3 (F := Ideal) x1 x3 (ix3 b e s) = proj (slab x3 b) (slab x1 b) e s := by
  rw [val_main_v3_apply]
  unfold proj slab
  refine Finset.sum_congr rfl fun k _ => ?_
  rw [val_main_v1_apply]
  have e1 : lidx_main_v3 (ix3 b e s) k = ix3 b e k :=
    funext fun a => Fin.ext (by match a with | ⟨0, _⟩ => rfl | ⟨1, _⟩ => rfl | ⟨2, _⟩ => rfl)
  have e2 : idx_main_v1 (ridx_main_v3 (ix3 b e s) k) = ix3 b s k :=
    funext fun a => Fin.ext (by match a with | ⟨0, _⟩ => rfl | ⟨1, _⟩ => rfl | ⟨2, _⟩ => rfl)
  rw [e1, e2]

/-- A joined row below 1024 is the text product's row. -/
theorem joined_low (b : Fin 64) (h : Fin 1024) (s : Fin 512) :
    val_main_v4 (F := Ideal) x0 x1 x2 x3 (ix3 b (⟨h.val, by omega⟩ : Fin 1792) s) = val_main_v2 (F := Ideal) x0 x2 (ix3 b h s) := by
  unfold val_main_v4
  exact concatenate_pair_apply_left 1 _ _ concatenates_S64x1024x512_S64x768x512_S64x1792x512_d1 _ rfl (ix3 b h s)
    (fun a => by match a with | ⟨0, _⟩ => rfl | ⟨1, _⟩ => rfl | ⟨2, _⟩ => rfl)

/-- A joined row from 1024 on is the aspect product's row. -/
theorem joined_high (b : Fin 64) (e : Fin 768) (s : Fin 512) :
    val_main_v4 (F := Ideal) x0 x1 x2 x3 (ix3 b (⟨1024 + e.val, by omega⟩ : Fin 1792) s) = val_main_v3 (F := Ideal) x1 x3 (ix3 b e s) := by
  unfold val_main_v4
  exact concatenate_pair_apply_right 1 _ _ concatenates_S64x1024x512_S64x768x512_S64x1792x512_d1 _ rfl rfl (ix3 b e s)
    (fun a ha => by match a with | ⟨0, _⟩ => rfl | ⟨1, _⟩ => exact absurd rfl ha | ⟨2, _⟩ => rfl)
    (by show e.val + 1024 = 1024 + e.val; omega)

/-- The reference's score tensor at `(b, 0, s)` is the score of sequence `b` at position `s`. -/
theorem score_apply (b : Fin 64) (s : Fin 512) :
    val_main_v6 (F := Ideal) x0 x1 x2 x3 x4 (ix3 b 0 s)
      = scores (slab x0 b) (slab x1 b) (slab x2 b) (slab x3 b) (slabRow x4 b) s := by
  rw [val_main_v6_apply]
  have el : ∀ k : Fin 1792, x4 (lidx_main_v6 (ix3 b 0 s) k) = slabRow x4 b k := fun k =>
    congrArg x4 (funext fun a => Fin.ext (by match a with | ⟨0, _⟩ => rfl | ⟨1, _⟩ => rfl | ⟨2, _⟩ => rfl))
  have er : ∀ k : Fin 1792, ridx_main_v6 (ix3 b 0 s) k = ix3 b k s := fun k =>
    funext fun a => Fin.ext (by match a with | ⟨0, _⟩ => rfl | ⟨1, _⟩ => rfl | ⟨2, _⟩ => rfl)
  refine (Finset.sum_congr rfl fun k _ => by rw [el k, er k]).trans ?_
  refine scores_eq_sum _ _ _ _ _ s (fun k => val_main_v5 (F := Ideal) x0 x1 x2 x3 (ix3 b k s)) (fun h => ?_) (fun e => ?_)
  · show val_main_v5 (F := Ideal) x0 x1 x2 x3 (ix3 b (⟨h.val, by omega⟩ : Fin 1792) s) = _
    rw [val_main_v5_apply, joined_low, text_product]
    rfl
  · show val_main_v5 (F := Ideal) x0 x1 x2 x3 (ix3 b (⟨1024 + e.val, by omega⟩ : Fin 1792) s) = _
    rw [val_main_v5_apply, joined_high, aspect_product]
    rfl

end Cert.AttnPool.Ref

end
-- ==== Proof.RefValue.lean ====
/-
  The reference's two results read at an index.

  After the score tensor the reference takes, for every sequence, the largest score from −∞ (a fold of `max` over the 512
  positions, then once more `max` with −∞), subtracts it, exponentiates, sums the exponentials from 0, divides, and
  contracts the resulting weights with the transposed text stack over the positions. Read at `(b, 0, s)` and `(b, 0, h)`
  these are the specification's softmax weight of sequence `b` at position `s` and its pooled text row at column `h`.
-/
import proofs.«172801_j82643760710180_2_alg».proof.Proof.RefScores

noncomputable section

namespace Cert.AttnPool.Ref

open Cert.ReferenceIdeal Cert.ReferenceIdeal.Gen Cert.ReferenceIdeal.Read Idealize.ShloMosaic Idealize.ShloMosaic.ValueIdx
open Cert.AttnPool

variable (x0 : (⟨S64x512x1024, .f32⟩ : BufTy).Contents (Elt Ideal)) (x1 : (⟨S64x512x768, .f32⟩ : BufTy).Contents (Elt Ideal))
  (x2 : (⟨S64x1024x1024, .f32⟩ : BufTy).Contents (Elt Ideal)) (x3 : (⟨S64x768x768, .f32⟩ : BufTy).Contents (Elt Ideal))
  (x4 : (⟨S64x1x1792, .f32⟩ : BufTy).Contents (Elt Ideal))

/-- The score tensor's last axis can be reduced away: the shape fact under which a result index is completed by a
    position. -/
theorem reduces_positions : S64x1x512.Reduces [2] S64x1 := by decide

/-- Sequence `b`'s result index completed by position `k`. -/
theorem lift_positions (b : Fin 64) (k : Fin 512) : reduces_positions.lift (ix2 b 0) k = ix3 b 0 k :=
  funext fun a => Fin.ext (by match a with | ⟨0, _⟩ => rfl | ⟨1, _⟩ => rfl | ⟨2, _⟩ => rfl)

/-- The host's reduce by `max` from −∞ over the positions of any [64, 1, 512] array, at sequence `b`: the fold of `max` from
    −∞ over that sequence's 512 entries. -/
theorem hostmax_apply (y : FVec Ideal S64x1x512 .f32) (b : Fin 64) :
    Host.reduce (FloatOps.maximumf (F := Ideal) (φ := .f32)) y (val_main_cst (F := Ideal)) reducesTo_S64x1x512_S64x1_d2 h_S_ (ix2 b 0)
      = (Finset.univ : Finset (Fin 512)).fold max negInf (fun k => y (ix3 b 0 k)) := by
  rw [Host.reduce_eq_fold_single (FloatOps.maximumf (F := Ideal) (φ := .f32)) y _ reducesTo_S64x1x512_S64x1_d2 reduces_positions h_S_]
  exact congrArg (fun f => (Finset.univ : Finset (Fin 512)).fold max negInf f) (funext fun k => congrArg y (lift_positions b k))

/-- The reference's reduce by `max`, at sequence `b`: the fold of `max` from −∞ over the scores. -/
theorem fold_apply (b : Fin 64) :
    val_main_v7 (F := Ideal) x0 x1 x2 x3 x4 (ix2 b 0)
      = (Finset.univ : Finset (Fin 512)).fold max negInf (scores (slab x0 b) (slab x1 b) (slab x2 b) (slab x3 b) (slabRow x4 b)) := by
  unfold val_main_v7
  refine (hostmax_apply (val_main_v6 (F := Ideal) x0 x1 x2 x3 x4) b).trans ?_
  exact congrArg (fun f => (Finset.univ : Finset (Fin 512)).fold max negInf f) (funext fun k => score_apply x0 x1 x2 x3 x4 b k)

/-- The shift the reference subtracts, at sequence `b`. -/
theorem shift_apply (b : Fin 64) :
    val_main_v9 (F := Ideal) x0 x1 x2 x3 x4 (ix2 b 0)
      = rowMax (scores (slab x0 b) (slab x1 b) (slab x2 b) (slab x3 b) (slabRow x4 b)) := by
  rw [val_main_v9_apply, val_main_v8_apply, val_main_cst_0_apply, fold_apply]
  rfl

/-- The shifted exponential at `(b, 0, k)`. -/
theorem exp_apply (b : Fin 64) (k : Fin 512) :
    val_main_v13 (F := Ideal) x0 x1 x2 x3 x4 (ix3 b 0 k)
      = expShift (scores (slab x0 b) (slab x1 b) (slab x2 b) (slab x3 b) (slabRow x4 b)) k := by
  rw [val_main_v13_apply, val_main_v12_apply, val_main_v11_apply, val_main_v10_apply]
  have e : idx_main_v10 (idx_main_v11 (ix3 b 0 k)) = ix2 b 0 :=
    funext fun a => Fin.ext (by match a with | ⟨0, _⟩ => rfl | ⟨1, _⟩ => rfl)
  rw [e, shift_apply, score_apply]
  rfl

/-- The sum of the shifted exponentials, at sequence `b`. -/
theorem denom_apply (b : Fin 64) :
    val_main_v14 (F := Ideal) x0 x1 x2 x3 x4 (ix2 b 0)
      = ∑ k : Fin 512, expShift (scores (slab x0 b) (slab x1 b) (slab x2 b) (slab x3 b) (slabRow x4 b)) k := by
  rw [val_main_v14_apply, val_main_cst_1_apply]
  show Ideal.ofBits .f32 0x00000000#32 + _ = _
  rw [Ideal.ofBits_zero_f32, zero_add]
  refine Finset.sum_congr rfl fun k _ => ?_
  have e : idx_main_v14 (ix2 b 0) k = ix3 b 0 k :=
    funext fun a => Fin.ext (by match a with | ⟨0, _⟩ => rfl | ⟨1, _⟩ => rfl | ⟨2, _⟩ => rfl)
  rw [e, exp_apply]

/-- The reference's first result at `(b, 0, s)`: the attention weight. -/
theorem weight_apply (b : Fin 64) (s : Fin 512) :
    val_main_v17 (F := Ideal) x0 x1 x2 x3 x4 (ix3 b 0 s)
      = weight (slab x0 b) (slab x1 b) (slab x2 b) (slab x3 b) (slabRow x4 b) s := by
  rw [val_main_v17_apply, val_main_v16_apply, val_main_v15_apply, exp_apply]
  have e : idx_main_v15 (idx_main_v16 (ix3 b 0 s)) = ix2 b 0 :=
    funext fun a => Fin.ext (by match a with | ⟨0, _⟩ => rfl | ⟨1, _⟩ => rfl)
  rw [e, denom_apply]
  rfl

/-- The reference's second result at `(b, 0, h)`: the pooled text row. -/
theorem pooled_apply (b : Fin 64) (h : Fin 1024) :
    val_main_v18 (F := Ideal) x0 x1 x2 x3 x4 (ix3 b 0 h)
      = pooled (slab x0 b) (slab x1 b) (slab x2 b) (slab x3 b) (slabRow x4 b) h := by
  rw [val_main_v18_apply]
  unfold pooled
  refine Finset.sum_congr rfl fun k _ => ?_
  have e1 : lidx_main_v18 (ix3 b 0 h) k = ix3 b 0 k :=
    funext fun a => Fin.ext (by match a with | ⟨0, _⟩ => rfl | ⟨1, _⟩ => rfl | ⟨2, _⟩ => rfl)
  have e2 : idx_main_v0 (ridx_main_v18 (ix3 b 0 h) k) = ix3 b k h :=
    funext fun a => Fin.ext (by match a with | ⟨0, _⟩ => rfl | ⟨1, _⟩ => rfl | ⟨2, _⟩ => rfl)
  rw [val_main_v0_apply, e1, e2, weight_apply]
  rfl

/-- The reference's first result is the specification's weight array. -/
theorem weight_eq : val_main_v17 (F := Ideal) x0 x1 x2 x3 x4 = weightArr x0 x1 x2 x3 x4 := by
  funext i
  obtain ⟨b, u, s, rfl⟩ : ∃ (b : Fin 64) (u : Fin 1) (s : Fin 512), i = ix3 b u s := ⟨i 0, i 1, i 2, eq_ix3 i⟩
  obtain rfl : u = 0 := Subsingleton.elim _ _
  exact weight_apply x0 x1 x2 x3 x4 b s

/-- The reference's second result is the specification's pooled array. -/
theorem pooled_eq : val_main_v18 (F := Ideal) x0 x1 x2 x3 x4 = pooledArr x0 x1 x2 x3 x4 := by
  funext i
  obtain ⟨b, u, h, rfl⟩ : ∃ (b : Fin 64) (u : Fin 1) (h : Fin 1024), i = ix3 b u h := ⟨i 0, i 1, i 2, eq_ix3 i⟩
  obtain rfl : u = 0 := Subsingleton.elim _ _
  exact pooled_apply x0 x1 x2 x3 x4 b h

end Cert.AttnPool.Ref

end
-- ==== Proof.lean ====
/-
  Attention pooling of 64 sequences: a Pallas kernel with one grid point per sequence against its jnp reference, equal on
  the extended reals.

  For each sequence both programs compute, from the text rows X, the aspect rows Y, the two weight matrices Wt, Wa and the
  combining row Wc,
      z s = ∑ h, Wc h · tanh (∑ k, Wt h k · X s k)  +  ∑ e, Wc (1024 + e) · tanh (∑ f, Wa e f · Y s f),
      w s = exp (z s − M) / ∑ k, exp (z k − M)  with  M = max (−∞, max over s of z s),      o h = ∑ s, w s · X s h,
  and return the weights w and the pooled rows o. The kernel does it block by block with matrix products into zero
  accumulators, lane reductions and roundings to bf16 before each product (the identity on the extended reals); the
  reference transposes, contracts with `dot_general`, joins the two projections along the row axis and contracts the
  joined 1792 rows at once. The two differ only in how the score's sum over 1792 terms is grouped (two partial sums against
  one), which is associativity and commutativity of the addition of extended reals: no finiteness of the inputs is used.

  Modules: Spec (the specification and the splitting of the sum), RefScores and RefValue (the reference's two results are
  the specification's arrays, over the generated read-at-an-index lemmas of its run), BodyScores, BodySoftmax and BodyArrays
  (what the kernel's body stores is the specification of its blocks), Blocks (the 64 blocks are the 64 sequences and cover
  the result arrays; the kernel's run), and here the five claims.
-/
import proofs.«172801_j82643760710180_2_alg».proof.Defs
import proofs.«172801_j82643760710180_2_alg».proof.Proof.Gen.Kernel
import proofs.«172801_j82643760710180_2_alg».proof.Proof.Gen.Kernel.Frame
import proofs.«172801_j82643760710180_2_alg».proof.Proof.Gen.KernelIdeal
import proofs.«172801_j82643760710180_2_alg».proof.Proof.Gen.KernelIdeal.Frame
import proofs.«172801_j82643760710180_2_alg».proof.Proof.Gen.ReferenceIdeal
import proofs.«172801_j82643760710180_2_alg».proof.Proof.Gen.Pre_finite_inputs
import proofs.«172801_j82643760710180_2_alg».proof.Proof.Gen.ReferenceIdeal.Run
import proofs.«172801_j82643760710180_2_alg».proof.Proof.Gen.ReferenceIdeal.Read
import proofs.«172801_j82643760710180_2_alg».proof.Proof.KernelIdealValue
import proofs.«172801_j82643760710180_2_alg».proof.Proof.Blocks
import proofs.«172801_j82643760710180_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's run, its two results forgotten. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs end with the specification's weight array and pooled array of the argument arrays. -/
theorem algebraic : Cert.algebraic_KernelIdeal_ReferenceIdeal := by
  intro m ρ m' ρ' _ hagree
  refine ⟨_, _, Cert.AttnPool.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1, (hagree c).2.2.2.1, (hagree c).2.2.2.2]
    exact (Cert.ReferenceIdeal.Read.val_main_v17_eq _ _ _ _ _).trans (Cert.AttnPool.Ref.weight_eq _ _ _ _ _)
  · rw [(hagree c).1, (hagree c).2.1, (hagree c).2.2.1, (hagree c).2.2.2.1, (hagree c).2.2.2.2]
    exact (Cert.ReferenceIdeal.Read.val_main_v18_eq _ _ _ _ _).trans (Cert.AttnPool.Ref.pooled_eq _ _ _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
